-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x8192 : Shape := ⟨3, ![1, 16, 8192]⟩
abbrev S8192x8192 : Shape := ⟨2, ![8192, 8192]⟩
abbrev S8192 : Shape := ⟨1, ![8192]⟩
abbrev S_ : Shape := ⟨0, ![]⟩

class Facts : Prop where
  bcast_S_S1x16x8192 : S_.BroadcastsInDim S1x16x8192 (![] : Fin 0 → Fin S1x16x8192.rank)
  reducesTo_S1x16x8192_S_d0_1_2 : S1x16x8192.ReducesTo [0, 1, 2] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1x16x8192 .f32) (main_arg1 : IVec S8192x8192 32) (main_arg2 : FVec F S8192 .f32) (main_arg3 : FVec F S8192 .f32) : IVec S_ 1 :=
  let main_v0 : FVec F S1x16x8192 .f32 := Host.absf main_arg0
  let main_cst : FVec F S_ .f32 := constant S_ .f32 0x7F800000#32
  let main_v1 : FVec F S1x16x8192 .f32 := broadcastInDim S1x16x8192 ![] bcast_S_S1x16x8192 main_cst
  let main_v2 : IVec S1x16x8192 1 := cmpf .olt main_v0 main_v1
  let main_c : IVec S_ 1 := constantI S_ 1 1#1
  let main_v3 : IVec S_ 1 := (fun x v => Host.reduce IntOp.andi x v reducesTo_S1x16x8192_S_d0_1_2 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S1x16x8192 : Shape := ⟨3, ![1, 16, 8192]⟩
abbrev S8192x8192 : Shape := ⟨2, ![8192, 8192]⟩
abbrev S8192 : Shape := ⟨1, ![8192]⟩
abbrev S16x8192 : Shape := ⟨2, ![16, 8192]⟩
abbrev S1x8192 : Shape := ⟨2, ![1, 8192]⟩
abbrev S2048x1024 : Shape := ⟨2, ![2048, 1024]⟩
abbrev S1x2048 : Shape := ⟨2, ![1, 2048]⟩
abbrev S16x2048 : Shape := ⟨2, ![16, 2048]⟩
abbrev S16x1024 : Shape := ⟨2, ![16, 1024]⟩
abbrev S16 : Shape := ⟨1, ![16]⟩
abbrev S16x1 : Shape := ⟨2, ![16, 1]⟩

abbrev nBuf : Space → Nat
  | .hbm => 9
  | .vmem => 10
  | .smem => 0
  | _ => 0

abbrev bufTy : (tb : Table) → Fin (tcTables nBuf tb) → BufTy
  | .hbm, ⟨0, _⟩ => ⟨S1x16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S16x8192, .f32⟩
  | .hbm, ⟨5, _⟩ => ⟨S1x8192, .f32⟩
  | .hbm, ⟨6, _⟩ => ⟨S1x8192, .f32⟩
  | .hbm, ⟨7, _⟩ => ⟨S16x8192, .f32⟩
  | .hbm, ⟨8, _⟩ => ⟨S1x16x8192, .f32⟩
  | .local _ .vmem, ⟨0, _⟩ => ⟨S16x8192, .f32⟩
  | .local _ .vmem, ⟨1, _⟩ => ⟨S2048x1024, .i32⟩
  | .local _ .vmem, ⟨2, _⟩ => ⟨S2048x1024, .i32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | _, _ => ⟨S1x16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x16x8192_S16x8192 : S1x16x8192.ShapeCasts S16x8192
  shapeCasts_S8192_S1x8192 : S8192.ShapeCasts S1x8192
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  h_S16x1024 : 0 < S16x1024.numel
  shapeCasts_S16x1024_S16x1024 : S16x1024.ShapeCasts S16x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  reduces_S16x8192_S16 : S16x8192.Reduces [1] S16
  shapeCasts_S16_S16x1 : S16.ShapeCasts S16x1
  broadcasts_S16x1_S16x2048 : S16x1.Broadcasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S16x2048 : S1x2048.Broadcasts S16x2048
  shapeCasts_S16x8192_S1x16x8192 : S16x8192.ShapeCasts S1x16x8192
  dot_S16x1024_S2048x1024_S16x2048_1_1_0_0_n_n_wf : DotDims.WF S16x1024 S2048x1024 S16x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S16x1024.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .i32 = 32 ∨ (Rect.block (s := S8192x8192) S2048x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2048.size a ≤ S16x8192.size a
  hwx0_4 : ∀ i : grid0.Coords, EltTy.bits .f32 = 32 ∨ (Rect.block (s := S16x8192) S16x2048.size (cc0_transform_4 i) (hinb0_4 i)).WholeWords (EltTy.packing .f32)

variable [Facts₀]

def dot_S16x1024_S2048x1024_S16x2048_1_1_0_0_n_n : DotDims S16x1024 S2048x1024 S16x2048 where
  lhsContracting := [1]
  rhsContracting := [1]
  lhsNonContracting := [0]
  rhsNonContracting := [0]
  lhsBatch := []
  rhsBatch := []
  wf := dot_S16x1024_S2048x1024_S16x2048_1_1_0_0_n_n_wf

abbrev win0_0 : Pipeline.Window sig grid0 :=
  Pipeline.Window.ofSpec (Memref.whole main_v0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x16x8192 : Shape := ⟨3, ![1, 16, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x1x8192 : Shape := ⟨3, ![1, 1, 8192]⟩

abbrev nBuf : Space → Nat
  | .hbm => 15
  | .vmem => 0
  | .smem => 0
  | _ => 0

abbrev bufTy : (tb : Table) → Fin (tcTables nBuf tb) → BufTy
  | .hbm, ⟨0, _⟩ => ⟨S1x16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S1x16x8192, .f32⟩
  | .hbm, ⟨12, _⟩ => ⟨S1x1x8192, .f32⟩
  | .hbm, ⟨13, _⟩ => ⟨S1x16x8192, .f32⟩
  | .hbm, ⟨14, _⟩ => ⟨S1x16x8192, .f32⟩
  | _, _ => ⟨S1x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x1x8192_2 : S8192.BroadcastsInDim S1x1x8192 (![2] : Fin 1 → Fin S1x1x8192.rank)
  bcast_S1x1x8192_S1x16x8192_0_1_2 : S1x1x8192.BroadcastsInDim S1x16x8192 (![0, 1, 2] : Fin 3 → Fin S1x16x8192.rank)
  dot_S1x16x8192_S8192x8192_S1x16x8192_2_1_01_0_n_n_wf : DotDims.WF S1x16x8192 S8192x8192 S1x16x8192 [2] [1] [0, 1] [0] [] []

variable [Facts₀]

def dot_S1x16x8192_S8192x8192_S1x16x8192_2_1_01_0_n_n : DotDims S1x16x8192 S8192x8192 S1x16x8192 where
  lhsContracting := [2]
  rhsContracting := [1]
  lhsNonContracting := [0, 1]
  rhsNonContracting := [0]
  lhsBatch := []
  rhsBatch := []
  wf := dot_S1x16x8192_S8192x8192_S1x16x8192_2_1_01_0_n_n_wf

class Facts : Prop extends Facts₀ where

variable [Facts]
-- ==== Proof.Pieces.lean ====
/-
  What the body leaves at one grid point, as pure functions of what it loads.

  At every point the body adds to the carried accumulator the product of the point's slice of the
  activations (columns 1024·k … 1024·k + 1023 of the resident 16 × 8192 block) with the point's
  2048 × 1024 tile of weight codes; at the first point of a run (k = 0) the accumulator it adds to
  is the zero block it has just stored; at the last point (k = 7) it also stores the output tile,
  computed from the accumulator it has just updated.
-/
import proofs.«163201_j53755810676756_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl

/-- The slice of the resident activations the point multiplies: 16 rows, 1024 columns from the point's offset. -/
abbrev xslice (i : grid0.Coords) (x0 : Vec F S16x8192 .f32) : Vec F S16x1024 .f32 :=
  View.ld x0 (Rect.unit (s := S16x8192) (k0_off1 i) S16x1024.size (Facts₀.k0_off1_inb i))

/-- A middle point (0 < k < 7): the accumulator found, plus the point's product. -/
theorem scratch_B (c : Dev nD) (i : grid0.Coords) (arg2 : Memref sig .tc .vmem S16x8192 .f32) (harg2 : arg2.IsWhole) (arg3 : Memref sig .tc .vmem S2048x1024 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S16x2048 .f32) (harg7 : arg7.IsWhole) (hc0 : ¬cond0_0 i) (hc1 : ¬cond0_1 i)
    (x0 : Vec F S16x8192 .f32) (x1 : Vec F S2048x1024 .i32) (x2 : Vec F S1x2048 .f32) (x3 : Vec F S1x2048 .f32) (xs0 : Vec F S16x2048 .f32) :
    sout0_B_0 c i arg2 harg2 arg3 harg3 arg4 harg4 arg5 harg5 arg6 harg6 arg7 harg7 hc0 hc1 x0 x1 x2 x3 xs0 = k0_pay2 (xslice i x0) x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero zeros2]
  simp only [View.readAt_eq_ld, harg2.read_unread, harg3.read_unread, harg7.read_unread,
    View.ld_unit_zero (S := S2048x1024) zeros2, View.ld_unit_zero (S := S16x2048) zeros2]

/-- The last point of a run (k = 7): the accumulator is updated as at a middle point, -/
theorem scratch_C (c : Dev nD) (i : grid0.Coords) (arg2 : Memref sig .tc .vmem S16x8192 .f32) (harg2 : arg2.IsWhole) (arg3 : Memref sig .tc .vmem S2048x1024 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S16x2048 .f32) (harg7 : arg7.IsWhole) (hc0 : ¬cond0_0 i) (hc1 : cond0_1 i)
    (x0 : Vec F S16x8192 .f32) (x1 : Vec F S2048x1024 .i32) (x2 : Vec F S1x2048 .f32) (x3 : Vec F S1x2048 .f32) (xs0 : Vec F S16x2048 .f32) :
    sout0_C_0 c i arg2 harg2 arg3 harg3 arg4 harg4 arg5 harg5 arg6 harg6 arg7 harg7 hc0 hc1 x0 x1 x2 x3 xs0 = k0_pay2 (xslice i x0) x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zeros2]
  simp only [View.readAt_eq_ld, harg2.read_unread, harg3.read_unread, harg7.read_unread,
    View.ld_unit_zero (S := S2048x1024) zeros2, View.ld_unit_zero (S := S16x2048) zeros2]
  rfl

/-- The first point of a run (k = 0): the zero block, plus the point's product. -/
theorem scratch_A (c : Dev nD) (i : grid0.Coords) (arg2 : Memref sig .tc .vmem S16x8192 .f32) (harg2 : arg2.IsWhole) (arg3 : Memref sig .tc .vmem S2048x1024 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S16x2048 .f32) (harg7 : arg7.IsWhole) (hc0 : cond0_0 i) (hc1 : ¬cond0_1 i)
    (x0 : Vec F S16x8192 .f32) (x1 : Vec F S2048x1024 .i32) (x2 : Vec F S1x2048 .f32) (x3 : Vec F S1x2048 .f32) :
    sout0_A_0 c i arg2 harg2 arg3 harg3 arg4 harg4 arg5 harg5 arg6 harg6 arg7 harg7 hc0 hc1 x0 x1 x2 x3 = k0_pay2 (xslice i x0) x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x2048) zeros2, View.readCov_unit_zero (S := S16x2048) _ zeros2]
  simp only [View.readAt_eq_ld, harg2.read_unread, harg3.read_unread,
    View.ld_unit_zero (S := S2048x1024) zeros2]
  rfl

/-- and the output tile is stored: the epilogue of the WHOLE resident activations, the updated accumulator, and the
    point's tiles of the scales and the biases. -/
theorem out_C (c : Dev nD) (i : grid0.Coords) (arg2 : Memref sig .tc .vmem S16x8192 .f32) (harg2 : arg2.IsWhole) (arg3 : Memref sig .tc .vmem S2048x1024 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S16x2048 .f32) (harg7 : arg7.IsWhole) (hc0 : ¬cond0_0 i) (hc1 : cond0_1 i)
    (x0 : Vec F S16x8192 .f32) (x1 : Vec F S2048x1024 .i32) (x2 : Vec F S1x2048 .f32) (x3 : Vec F S1x2048 .f32) (xs0 : Vec F S16x2048 .f32) :
    out0_C_4 c i arg2 harg2 arg3 harg3 arg4 harg4 arg5 harg5 arg6 harg6 arg7 harg7 hc0 hc1 x0 x1 x2 x3 xs0 = k0_pay3 x0 (k0_pay2 (xslice i x0) x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zeros2, View.readCov_unit_zero (S := S16x2048) _ zeros2]
  simp only [View.readAt_eq_ld, harg2.read_unread, harg3.read_unread, harg4.read_unread, harg5.read_unread,
    harg7.read_unread, View.ld_unit_zero (S := S2048x1024) zeros2, View.ld_unit_zero (S := S16x2048) zeros2,
    View.ld_unit_zero (S := S16x8192) zeros2, View.ld_unit_zero (S := S1x2048) zeros2]
  rfl

end Cert.KernelIdeal.Pieces

end
-- ==== Proof.Payload.lean ====
/-
  The body's arithmetic at one index, over the extended reals.

  With x the 16 × 8192 activations, w the integer weight codes, s the scales and b the biases:
  * the accumulation step at row p and local column r adds, to what the accumulator held,
    the sum over the 1024 columns j of the point's slice of x (p, j) · w (r, j), the code read as the integer it is;
  * the epilogue at (p, r) is (acc (p, r) − 128 · ∑ₖ x (p, k)) · s r + b r, the sum over all 8192 columns.
-/
import proofs.«163201_j53755810676756_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Payload

open Cert.KernelIdeal Cert.KernelIdeal.Gen

/-- The dimension numbers of the body's product: both operands contract their second axis. -/
abbrev DD : DotDims S16x1024 S2048x1024 S16x2048 := dot_S16x1024_S2048x1024_S16x2048_1_1_0_0_n_n

theorem lhs_row (i : S16x2048.Idx) (q : DD.contr.Idx) : (DD.lhsIdx i q 0).val = (i 0).val := by
  unfold DotDims.lhsIdx
  rw [dif_neg (show ¬(0 : Fin S16x1024.rank) ∈ DD.lhsBatch by decide), dif_pos (show (0 : Fin S16x1024.rank) ∈ DD.lhsNonContracting by decide)]
  rfl

theorem rhs_row (i : S16x2048.Idx) (q : DD.contr.Idx) : (DD.rhsIdx i q 0).val = (i 1).val := by
  unfold DotDims.rhsIdx
  rw [dif_neg (show ¬(0 : Fin S2048x1024.rank) ∈ DD.rhsBatch by decide), dif_pos (show (0 : Fin S2048x1024.rank) ∈ DD.rhsNonContracting by decide)]
  rfl

/-- The block the run's first point stores is zero everywhere. -/
theorem zero_block (i : S16x2048.Idx) : k0_pay1 (F := Ideal) i = 0 := by
  unfold k0_pay1
  simp only [shapeCast_self]
  exact Ideal.ofBits_zero_f32

/-- One accumulation step at (p, r): what was there, plus the 1024-term inner product of row p of the slice with row r
    of the tile of codes. -/
theorem accum_step (v6 : Vec Ideal S16x1024 .f32) (v9 : Vec Ideal S2048x1024 .i32) (v11 : Vec Ideal S16x2048 .f32)
    (p : Fin 16) (r : Fin 2048) :
    k0_pay2 v6 v9 v11 (ix2 p r)
      = v11 (ix2 p r) + ∑ j : Fin 1024, v6 (ix2 p j) * (((v9 (ix2 r j)).toInt : ℝ) : EReal) := by
  unfold k0_pay2
  simp only [shapeCast_self]
  refine congrArg (v11 (ix2 p r) + ·) ?_
  refine (Ideal.matmul_constant_zero_apply DD none _ _ (ix2 p r)).trans ?_
  rw [← Equiv.sum_comp (contrEquiv1 DD 1024 rfl rfl).symm]
  refine Finset.sum_congr rfl fun k _ => ?_
  have hk := contrEquiv1_symm_val DD 1024 rfl rfl k
  have el : DD.lhsIdx (ix2 p r) ((contrEquiv1 DD 1024 rfl rfl).symm k) = ix2 p k := funext fun a => Fin.ext (by
    match a with
    | ⟨0, _⟩ => exact lhs_row _ _
    | ⟨1, _⟩ => exact (DD.lhsIdx_val_of_single rfl _ _).trans hk)
  have er : DD.rhsIdx (ix2 p r) ((contrEquiv1 DD 1024 rfl rfl).symm k) = ix2 r k := funext fun a => Fin.ext (by
    match a with
    | ⟨0, _⟩ => exact rhs_row _ _
    | ⟨1, _⟩ => exact (DD.rhsIdx_val_of_single rfl _ _).trans hk)
  rw [el, er]
  rfl

/-- A column [a, 1] spread over [a, b] reads, at (p, c), the column at p. -/
theorem bcast_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (i, 0), the vector at i. -/
theorem column_of_vector {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row sum of a [16, 8192] block at row p. -/
theorem row_sum (src : FVec Ideal S16x8192 .f32) (h : S16x8192.Reduces [1] S16) (hφ : FKind.Formats .f32)
    (hacc : (0x00000000#32 : BitVec 32) = 0x00000000#32) (p : Fin 16) :
    multiReduction .add [1] S16 src 0x00000000#32 h hφ hacc (ix1 p) = ∑ k : Fin 8192, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The epilogue at (p, r). -/
theorem epilogue (v20 : Vec Ideal S16x8192 .f32) (v24 : Vec Ideal S16x2048 .f32) (v29 v33 : Vec Ideal S1x2048 .f32)
    (p : Fin 16) (r : Fin 2048) :
    k0_pay3 v20 v24 v29 v33 (ix2 p r)
      = (v24 (ix2 p r) - Ideal.ofBits .f32 0x43000000#32 * ∑ k : Fin 8192, v20 (ix2 p k)) * v29 (ix2 (0 : Fin 1) r)
          + v33 (ix2 (0 : Fin 1) r) := by
  unfold k0_pay3
  simp only [shapeCast_self]
  show (v24 (ix2 p r) - broadcastTo S16x2048 _ _ (ix2 p r)) * broadcastTo S16x2048 v29 _ (ix2 p r)
      + broadcastTo S16x2048 v33 _ (ix2 p r) = _
  rw [broadcastTo_1b_ab_apply, broadcastTo_1b_ab_apply, bcast_column]
  show (v24 (ix2 p r) - Ideal.ofBits .f32 0x43000000#32 * shapeCast S16x1 _ _ (ix2 p (0 : Fin 1))) * _ + _ = _
  rw [column_of_vector, row_sum]

end Cert.KernelIdeal.Payload

end
-- ==== Proof.Spec.lean ====
/-
  The two closed forms of a quantized linear layer over the extended reals, and the law joining them.

  x : the activations [1, 16, 8192]; w : the integer weight codes [8192, 8192] (row o = output channel);
  s, b : per-output-channel scale and bias [8192]; z : the zero point (a float literal, the same word in both programs).

  The reference dequantizes first:      out (u, p, o) = ∑ₖ x (u, p, k) · ((w (o, k) − z) · s o)  +  b o.
  The kernel multiplies the raw codes, accumulating eight column blocks of 1024 into a zero block, and corrects afterwards:
                                         out (u, p, o) = ((0 + ∑_{blocks} ∑ⱼ x · w) − z · ∑ₖ x (u, p, k)) · s o  +  b o.
  They agree when x, s and z are real numbers (b may be anything): the inner sums are then real, and over ℝ
  (∑ x·w − z·∑ x)·s = ∑ x·((w − z)·s) by distributivity, the eight blocks of 1024 columns being all 8192 columns.
-/
import Idealize.ShloMosaic.PureOps.Ideal
import Idealize.ShloMosaic.Lib.ValueIdx

noncomputable section

open Idealize.ShloMosaic Idealize.ShloMosaic.ValueIdx

namespace Cert.QLinear

abbrev SX : Shape := ⟨3, ![1, 16, 8192]⟩
abbrev SW : Shape := ⟨2, ![8192, 8192]⟩
abbrev SV : Shape := ⟨1, ![8192]⟩

/-- The zero point, as the programs spell it: the f32 word of 128.0. -/
abbrev zp : EReal := Ideal.ofBits .f32 0x43000000#32

/-- A weight code read as the integer it is. -/
abbrev code (w : SW.Idx → BitVec 32) (o k : Fin 8192) : EReal := (((w (ix2 o k)).toInt : ℝ) : EReal)

/-- Column j of block q of 1024 columns. -/
abbrev col (q : Fin 8) (j : Fin 1024) : Fin 8192 := ⟨1024 * q.val + j.val, by have := q.isLt; have := j.isLt; omega⟩

/-- Dequantize, then multiply (the reference). -/
def dequantFirst (x : SX.Idx → EReal) (w : SW.Idx → BitVec 32) (s b : SV.Idx → EReal) (i : SX.Idx) : EReal :=
  (∑ k : Fin 8192, x (ix3 ⟨(i 0).val, (i 0).isLt⟩ ⟨(i 1).val, (i 1).isLt⟩ k)
      * ((code w ⟨(i 2).val, (i 2).isLt⟩ k - zp) * s (ix1 ⟨(i 2).val, (i 2).isLt⟩)))
    + b (ix1 ⟨(i 2).val, (i 2).isLt⟩)

/-- Multiply the raw codes block by block, then correct (the kernel), at coordinates (u, p, o). -/
def correctAfter (x : SX.Idx → EReal) (w : SW.Idx → BitVec 32) (s b : SV.Idx → EReal) (u : Fin 1) (p : Fin 16) (o : Fin 8192) : EReal :=
  ((0 + ∑ q : Fin 8, ∑ j : Fin 1024, x (ix3 u p (col q j)) * code w o (col q j))
      - zp * ∑ k : Fin 8192, x (ix3 u p k)) * s (ix1 o)
    + b (ix1 o)

/-- A finite sum of reals, read in the extended reals, is the sum of the readings. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Eight blocks of 1024 columns are the 8192 columns. -/
theorem sum_blocks {M : Type*} [AddCommMonoid M] (f : Fin 8192 → M) :
    ∑ q : Fin 8, ∑ j : Fin 1024, f (col q j) = ∑ k : Fin 8192, f k := by
  rw [← Fintype.sum_prod_type' (f := fun q j => f (col q j))]
  refine Fintype.sum_equiv ((finProdFinEquiv (m := 8) (n := 1024)).trans (finCongr (by norm_num))) _ _ fun pr => ?_
  refine congrArg f (Fin.ext ?_)
  simp [col, finProdFinEquiv]
  omega

/-- The law over ℝ. -/
theorem real_law (xr wr : Fin 8192 → ℝ) (z sr : ℝ) :
    ((0 + ∑ q : Fin 8, ∑ j : Fin 1024, xr (col q j) * wr (col q j)) - z * ∑ k : Fin 8192, xr k) * sr
      = ∑ k : Fin 8192, xr k * ((wr k - z) * sr) := by
  rw [sum_blocks (fun k => xr k * wr k), zero_add, Finset.mul_sum, ← Finset.sum_sub_distrib, Finset.sum_mul]
  exact Finset.sum_congr rfl fun k _ => by ring

/-- The two forms agree where the activations' row, the channel's scale and the zero point are real. -/
theorem correctAfter_eq (x : SX.Idx → EReal) (w : SW.Idx → BitVec 32) (s b : SV.Idx → EReal) (u : Fin 1) (p : Fin 16) (o : Fin 8192)
    (hx : ∀ k : Fin 8192, ∃ r : ℝ, x (ix3 u p k) = (r : EReal)) (hs : ∃ r : ℝ, s (ix1 o) = (r : EReal))
    (hz : ∃ r : ℝ, zp = (r : EReal)) :
    correctAfter x w s b u p o = dequantFirst x w s b (ix3 u p o) := by
  choose xr hxr using hx
  obtain ⟨sr, hsr⟩ := hs
  obtain ⟨z, hz⟩ := hz
  unfold correctAfter dequantFirst
  show _ = (∑ k : Fin 8192, x (ix3 u p k) * ((code w o k - zp) * s (ix1 o))) + b (ix1 o)
  refine congrArg (· + b (ix1 o)) ?_
  simp only [hxr, hsr, hz, code]
  have h := congrArg (fun r : ℝ => (r : EReal)) (real_law xr (fun k => ((w (ix2 o k)).toInt : ℝ)) z sr)
  simp only [EReal.coe_mul, EReal.coe_sub, EReal.coe_add, EReal.coe_zero, coe_sum] at h
  exact h

end Cert.QLinear

end
-- ==== Proof.Accum.lean ====
/-
  The accumulator across a run of eight grid points, and the blocks the points read.

  The grid is 4 × 8, the inner coordinate k running over the eight column blocks of a row of output tiles:
  point t is output tile t / 8, column block t % 8. The accumulator is reset at k = 0 and updated at every
  point, so after point t it holds the sum of the products of the column blocks 0 … t % 8 — a fold over the
  run, opened once at an index.
-/
import proofs.«163201_j53755810676756_2_alg».proof.Proof.Pieces
import proofs.«163201_j53755810676756_2_alg».proof.Proof.Payload
import proofs.«163201_j53755810676756_2_alg».proof.Proof.Spec

noncomputable section

open Idealize.ShloMosaic Idealize.ShloMosaic.TcCoe Idealize.SL.Sem
open Idealize.ShloMosaic.Pipeline (Dat)
open Idealize.ShloMosaic.ValueIdx

namespace Cert.KernelIdeal.Accum

open Cert.KernelIdeal Cert.KernelIdeal.Gen Cert.KernelIdeal.Pieces Cert.KernelIdeal.Payload
open Cert.QLinear (col)

variable (m : (ℓ : Loc nD τ sig) → Buf (Elt Ideal) ℓ)

/-! ## Where each point's blocks sit -/

/-- The slice of the activations starts at column 1024 · (t % 8). -/
theorem slice_offset : ∀ t : Fin cfg0.N, k0_off1 (grid0.coords t) 0 = 0 ∧ k0_off1 (grid0.coords t) 1 = 1024 * (t.val % 8) :=
  (by decide +kernel : ∀ t : Fin grid0.N, _)

/-- The activations' block is the whole array at every point. -/
theorem index_x : ∀ t : Fin cfg0.N, win0_0.index t (0 : Fin 2) = 0 ∧ win0_0.index t (1 : Fin 2) = 0 :=
  (by decide +kernel : ∀ t : Fin grid0.N, _)

/-- The tile of codes at point t: rows of output tile t / 8, column block t % 8. -/
theorem index_w : ∀ t : Fin cfg0.N, win0_1.index t (0 : Fin 2) = t.val / 8 ∧ win0_1.index t (1 : Fin 2) = t.val % 8 :=
  (by decide +kernel : ∀ t : Fin grid0.N, _)

/-- The scales', the biases' and the output's tiles at point t: columns of output tile t / 8. -/
theorem index_s : ∀ t : Fin cfg0.N, win0_2.index t (0 : Fin 2) = 0 ∧ win0_2.index t (1 : Fin 2) = t.val / 8 :=
  (by decide +kernel : ∀ t : Fin grid0.N, _)
theorem index_b : ∀ t : Fin cfg0.N, win0_3.index t (0 : Fin 2) = 0 ∧ win0_3.index t (1 : Fin 2) = t.val / 8 :=
  (by decide +kernel : ∀ t : Fin grid0.N, _)
theorem index_o : ∀ t : Fin cfg0.N, win0_4.index t (0 : Fin 2) = 0 ∧ win0_4.index t (1 : Fin 2) = t.val / 8 :=
  (by decide +kernel : ∀ t : Fin grid0.N, _)

/-- The activations' block read at (p, k) is the array there. -/
theorem read_x (c : Dev nD) (t : Fin cfg0.N) (p : Fin 16) (k : Fin 8192) :
    (iblk m c 0 t : Vec Ideal S16x8192 .f32) (ix2 p k) = V m c main_v0 (ix2 p k) := by
  unfold iblk
  rw [View.read_apply]
  show V m c main_v0 _ = V m c main_v0 _
  congr 1
  funext a
  apply Fin.ext
  match a with
  | ⟨0, _⟩ => show win0_0.index t 0 * 16 + 1 * p.val = p.val; rw [(index_x t).1]; omega
  | ⟨1, _⟩ => show win0_0.index t 1 * 8192 + 1 * k.val = k.val; rw [(index_x t).2]; omega

/-- The tile of codes read at (r, j) is the array at row 2048 · (t / 8) + r, column 1024 · (t % 8) + j. -/
theorem read_w (c : Dev nD) (t : Fin cfg0.N) (r : Fin 2048) (j : Fin 1024) (o k : Fin 8192)
    (ho : 2048 * (t.val / 8) + r.val = o.val) (hk : 1024 * (t.val % 8) + j.val = k.val) :
    (iblk m c 1 t : Vec Ideal S2048x1024 .i32) (ix2 r j) = V m c main_arg1 (ix2 o k) := by
  unfold iblk
  rw [View.read_apply]
  show V m c main_arg1 _ = V m c main_arg1 _
  congr 1
  funext a
  apply Fin.ext
  match a with
  | ⟨0, _⟩ => show win0_1.index t 0 * 2048 + 1 * r.val = o.val; rw [(index_w t).1]; omega
  | ⟨1, _⟩ => show win0_1.index t 1 * 1024 + 1 * j.val = k.val; rw [(index_w t).2]; omega

/-- The scales' tile read at (0, r) is the row of scales at column 2048 · (t / 8) + r; -/
theorem read_s (c : Dev nD) (t : Fin cfg0.N) (r : Fin 2048) (o : Fin 8192) (ho : 2048 * (t.val / 8) + r.val = o.val) :
    (iblk m c 2 t : Vec Ideal S1x2048 .f32) (ix2 (0 : Fin 1) r) = V m c main_v1 (ix2 (0 : Fin 1) o) := by
  unfold iblk
  rw [View.read_apply]
  show V m c main_v1 _ = V m c main_v1 _
  congr 1
  funext a
  apply Fin.ext
  match a with
  | ⟨0, _⟩ => show win0_2.index t 0 * 1 + 1 * 0 = 0; rw [(index_s t).1]
  | ⟨1, _⟩ => show win0_2.index t 1 * 2048 + 1 * r.val = o.val; rw [(index_s t).2]; omega

/-- and the biases' likewise. -/
theorem read_b (c : Dev nD) (t : Fin cfg0.N) (r : Fin 2048) (o : Fin 8192) (ho : 2048 * (t.val / 8) + r.val = o.val) :
    (iblk m c 3 t : Vec Ideal S1x2048 .f32) (ix2 (0 : Fin 1) r) = V m c main_v2 (ix2 (0 : Fin 1) o) := by
  unfold iblk
  rw [View.read_apply]
  show V m c main_v2 _ = V m c main_v2 _
  congr 1
  funext a
  apply Fin.ext
  match a with
  | ⟨0, _⟩ => show win0_3.index t 0 * 1 + 1 * 0 = 0; rw [(index_b t).1]
  | ⟨1, _⟩ => show win0_3.index t 1 * 2048 + 1 * r.val = o.val; rw [(index_b t).2]; omega

/-- The point's slice of a block of activations read at (p, j) is the block at column offset + j. -/
theorem slice_apply (i : grid0.Coords) (x0 : Vec Ideal S16x8192 .f32) (p : Fin 16) (j : Fin 1024) (k : Fin 8192)
    (h0 : k0_off1 i 0 = 0) (h1 : k0_off1 i 1 + j.val = k.val) : xslice i x0 (ix2 p j) = x0 (ix2 p k) :=
  congrArg x0 (funext fun a => Fin.ext (by
    match a with
    | ⟨0, _⟩ => show k0_off1 i 0 + 1 * p.val = p.val; omega
    | ⟨1, _⟩ => show k0_off1 i 1 + 1 * j.val = k.val; omega))

/-! ## The accumulator after each point -/

/-- What the carried accumulator holds after point n. -/
def acc (c : Dev nD) (n : ℕ) (h : n < cfg0.N) : Vec Ideal S16x2048 .f32 := (outsAt0 m c n h).2

/-- One point's update of the accumulator: the body's accumulation step on the point's blocks. -/
def step (c : Dev nD) (n : ℕ) (h : n < cfg0.N) (a : Vec Ideal S16x2048 .f32) : Vec Ideal S16x2048 .f32 :=
  k0_pay2 (xslice (grid0.coords ⟨n, h⟩) (iblk m c 0 ⟨n, h⟩)) (iblk m c 1 ⟨n, h⟩) a

/-- At the first point of a run the step is applied to the zero block. -/
theorem acc_reset (c : Dev nD) (n : ℕ) (h : n < cfg0.N) (h0 : n % 8 = 0) :
    acc m c n h = step m c n h (k0_pay1 (F := Ideal)) :=
  by
  have h1 : ¬n % 8 = 7 := by omega
  unfold acc step
  rw [outsAt0_A m c ⟨n, h⟩ h0 h1]
  dsimp only
  exact scratch_A (F := Ideal) c _ _ _ _ _ _ _ _ _ _ _ _ _ _ _ _ _ _ _

/-- At every other point it is applied to what the point before left. -/
theorem acc_step (c : Dev nD) (n : ℕ) (h : n + 1 < cfg0.N) (hne : ¬(n + 1) % 8 = 0) :
    acc m c (n + 1) h = step m c (n + 1) h (acc m c n (Nat.lt_of_succ_lt h)) := by
  by_cases h7 : (n + 1) % 8 = 7
  · unfold acc step
    rw [outsAt0_C m c ⟨n + 1, h⟩ hne h7]
    dsimp only
    exact scratch_C (F := Ideal) c _ _ _ _ _ _ _ _ _ _ _ _ _ _ _ _ _ _ _ _
  · unfold acc step
    rw [outsAt0_B m c ⟨n + 1, h⟩ hne h7]
    dsimp only
    exact scratch_B (F := Ideal) c _ _ _ _ _ _ _ _ _ _ _ _ _ _ _ _ _ _ _ _

/-- So after point t the accumulator is the fold of the steps over the run's points up to t. -/
theorem acc_fold (c : Dev nD) (t : ℕ) (ht : t < cfg0.N) :
    acc m c t ht = Pipeline.accAt (fun n h => step m c n h (k0_pay1 (F := Ideal))) (fun n h a => step m c n h a)
      (8 * (t / 8)) (t % 8) (by rw [Nat.div_add_mod]; exact ht) :=
  Pipeline.eq_accAt_of_mod (acc m c) 8 _ _ (acc_reset m c) (acc_step m c) (by decide) t ht _

/-- What point n adds at an index: the 1024-term inner product of its slice's row with its tile's row. -/
def addend (c : Dev nD) (n : ℕ) (i : S16x2048.Idx) : EReal :=
  if h : n < cfg0.N then
    ∑ j : Fin 1024, xslice (grid0.coords ⟨n, h⟩) (iblk m c 0 ⟨n, h⟩) (ix2 ⟨(i 0).val, idx2_lt0 i⟩ j)
      * ((((iblk m c 1 ⟨n, h⟩ : Vec Ideal S2048x1024 .i32) (ix2 ⟨(i 1).val, idx2_lt1 i⟩ j)).toInt : ℝ) : EReal)
  else 0

theorem step_apply (c : Dev nD) (n : ℕ) (h : n < cfg0.N) (a : Vec Ideal S16x2048 .f32) (p : Fin 16) (r : Fin 2048) :
    step m c n h a (ix2 p r) = a (ix2 p r) + addend m c n (ix2 p r) := by
  unfold step addend
  rw [dif_pos h]
  exact accum_step _ _ _ p r

theorem exists_ix2 (i : S16x2048.Idx) : ∃ (p : Fin 16) (r : Fin 2048), i = ix2 p r := ⟨i 0, i 1, eq_ix2 i⟩

/-- The fold opened at an index: zero plus the addends of the run's points up to t. -/
theorem acc_apply (c : Dev nD) (t : ℕ) (ht : t < cfg0.N) (p : Fin 16) (r : Fin 2048) :
    acc m c t ht (ix2 p r) = 0 + ∑ s ∈ Finset.range (t % 8 + 1), addend m c (8 * (t / 8) + s) (ix2 p r) := by
  rw [acc_fold]
  refine Pipeline.accAt_add_apply _ _ (fun _ => (0 : EReal)) (addend m c) (8 * (t / 8)) 7 (fun h i => ?_)
    (fun n h a i _ _ => ?_) (t % 8) (by omega) _ (ix2 p r)
  · obtain ⟨p, r, rfl⟩ := exists_ix2 i
    rw [step_apply, zero_block]
  · obtain ⟨p, r, rfl⟩ := exists_ix2 i
    rw [step_apply]

end Cert.KernelIdeal.Accum

end
-- ==== Proof.Tile.lean ====
/-
  The output tile a run's last point stores, in the coordinates of the whole arrays.

  At point t = 8·q + 7 the body stores, at row p and local column r of output tile q — column o = 2048·q + r of the
  result —, (acc − 128 · ∑ₖ x (p, k)) · s o + b o, where acc is the run's fold: zero plus, for each of the eight column
  blocks, the inner product of row p of x with row o of the codes over that block's 1024 columns.
-/
import proofs.«163201_j53755810676756_2_alg».proof.Proof.Accum

noncomputable section

open Idealize.ShloMosaic Idealize.ShloMosaic.TcCoe Idealize.SL.Sem
open Idealize.ShloMosaic.Pipeline (Dat)
open Idealize.ShloMosaic.ValueIdx

namespace Cert.KernelIdeal.Tile

open Cert.KernelIdeal Cert.KernelIdeal.Gen Cert.KernelIdeal.Pieces Cert.KernelIdeal.Payload Cert.KernelIdeal.Accum
open Cert.QLinear (col zp)

variable (m : (ℓ : Loc nD τ sig) → Buf (Elt Ideal) ℓ)

/-- The arrays as the region finds them: the activations as a 16 × 8192 matrix, the codes, the scales and the biases as rows. -/
abbrev X (c : Dev nD) : Vec Ideal S16x8192 .f32 := V m c main_v0
abbrev W (c : Dev nD) : Vec Ideal S8192x8192 .i32 := V m c main_arg1
abbrev Srow (c : Dev nD) : Vec Ideal S1x8192 .f32 := V m c main_v1
abbrev Brow (c : Dev nD) : Vec Ideal S1x8192 .f32 := V m c main_v2

/-- The kernel's 16 × 8192 result as ONE function of the arrays the region finds: X the activations as a matrix,
    W the codes, S and B the scales and biases as rows. -/
def outArr (X : Vec Ideal S16x8192 .f32) (W : Vec Ideal S8192x8192 .i32) (S B : Vec Ideal S1x8192 .f32) (i : S16x8192.Idx) : EReal :=
  ((0 + ∑ q : Fin 8, ∑ j : Fin 1024, X (ix2 ⟨(i 0).val, idx2_lt0 i⟩ (col q j))
          * ((((W (ix2 ⟨(i 1).val, idx2_lt1 i⟩ (col q j))).toInt : ℝ) : EReal)))
      - zp * ∑ k : Fin 8192, X (ix2 ⟨(i 0).val, idx2_lt0 i⟩ k)) * S (ix2 (0 : Fin 1) ⟨(i 1).val, idx2_lt1 i⟩)
    + B (ix2 (0 : Fin 1) ⟨(i 1).val, idx2_lt1 i⟩)

/-- A point's addend in array coordinates: column block n % 8, output column 2048 · (n / 8) + r. -/
theorem addend_eq (c : Dev nD) (n : ℕ) (h : n < cfg0.N) (p : Fin 16) (r : Fin 2048) (o : Fin 8192) (q : Fin 8)
    (ho : 2048 * (n / 8) + r.val = o.val) (hq : n % 8 = q.val) :
    addend m c n (ix2 p r)
      = ∑ j : Fin 1024, X m c (ix2 p (col q j)) * ((((W m c) (ix2 o (col q j))).toInt : ℝ) : EReal) := by
  unfold addend
  rw [dif_pos h]
  refine Finset.sum_congr rfl fun j _ => ?_
  show xslice (grid0.coords ⟨n, h⟩) (iblk m c 0 ⟨n, h⟩) (ix2 p j)
      * ((((iblk m c 1 ⟨n, h⟩ : Vec Ideal S2048x1024 .i32) (ix2 r j)).toInt : ℝ) : EReal) = _
  have hc : 1024 * ((⟨n, h⟩ : Fin cfg0.N).val % 8) + j.val = (col q j).val := by
    show 1024 * (n % 8) + j.val = 1024 * q.val + j.val
    rw [hq]
  have e1 := slice_apply (grid0.coords ⟨n, h⟩) (iblk m c 0 ⟨n, h⟩) p j (col q j) (slice_offset ⟨n, h⟩).1
    (by rw [(slice_offset ⟨n, h⟩).2]; exact hc)
  have e2 := read_x m c ⟨n, h⟩ p (col q j)
  have e3 := read_w m c ⟨n, h⟩ r j o (col q j) ho hc
  rw [e1, e2, e3]

/-- At a run's last point the output tile is the epilogue of the run's accumulator. -/
theorem out_last (c : Dev nD) (t : Fin cfg0.N) (h7 : t.val % 8 = 7) :
    (outsAt0 m c t.val t.isLt).1 = k0_pay3 (iblk m c 0 t) (acc m c t.val t.isLt) (iblk m c 2 t) (iblk m c 3 t) := by
  have hne : ¬t.val % 8 = 0 := by omega
  have e : acc m c t.val t.isLt
      = k0_pay2 (xslice (grid0.coords t) (iblk m c 0 t)) (iblk m c 1 t)
          (outsAt0 m c (t.val - 1) (Nat.lt_of_le_of_lt (Nat.sub_le _ _) t.isLt)).2 := by
    unfold acc
    rw [outsAt0_C m c t hne h7]
    dsimp only
    exact scratch_C (F := Ideal) c _ _ _ _ _ _ _ _ _ _ _ _ _ _ _ _ _ _ _ _
  rw [e, outsAt0_C m c t hne h7]
  dsimp only
  exact out_C (F := Ideal) c _ _ _ _ _ _ _ _ _ _ _ _ _ _ _ _ _ _ _ _

/-- The stored tile at (p, r) is the result function at (p, 2048 · q + r). -/
theorem out_last_apply (c : Dev nD) (t : Fin cfg0.N) (h7 : t.val % 8 = 7) (p : Fin 16) (r : Fin 2048) (o : Fin 8192)
    (ho : 2048 * (t.val / 8) + r.val = o.val) :
    (outsAt0 m c t.val t.isLt).1 (ix2 p r)
      = outArr (X m c) (W m c) (Srow m c) (Brow m c) (ix2 p o) := by
  rw [out_last m c t h7, epilogue, acc_apply, h7, Finset.sum_range]
  unfold outArr
  show _ = ((0 + ∑ q : Fin 8, ∑ j : Fin 1024, X m c (ix2 p (col q j))
          * ((((W m c) (ix2 o (col q j))).toInt : ℝ) : EReal))
      - zp * ∑ k : Fin 8192, X m c (ix2 p k)) * Srow m c (ix2 (0 : Fin 1) o)
    + Brow m c (ix2 (0 : Fin 1) o)
  rw [read_s m c t r o ho, read_b m c t r o ho]
  have hsum : ∀ q : Fin 8, addend m c (8 * (t.val / 8) + q.val) (ix2 p r)
      = ∑ j : Fin 1024, X m c (ix2 p (col q j)) * ((((W m c) (ix2 o (col q j))).toInt : ℝ) : EReal) :=
    fun q => addend_eq m c _ (by have := t.isLt; have := q.isLt; omega) p r o q
      (by have := q.isLt; rw [show (8 * (t.val / 8) + q.val) / 8 = t.val / 8 by omega]; exact ho)
      (by have := q.isLt; omega)
  have hx : ∀ k : Fin 8192, (iblk m c 0 t : Vec Ideal S16x8192 .f32) (ix2 p k) = X m c (ix2 p k) := fun k => read_x m c t p k
  simp only [hsum, hx]

end Cert.KernelIdeal.Tile

end
-- ==== Proof.Final.lean ====
/-
  The kernel's result array after the run, and the program's result after the reshape that follows the region.

  Each run's last point writes its 16 × 2048 tile back to columns 2048·q … 2048·q + 2047 of the 16 × 8192 result;
  the four tiles cover it, so the result is ONE function of the arrays the region found. Those arrays are the
  arguments reshaped ([1,16,8192] → [16,8192], [8192] → [1,8192]), and the program's result is the kernel's reshaped
  back, so at (u, p, o) the program returns the "multiply raw codes, correct afterwards" form of the arguments.
-/
import proofs.«163201_j53755810676756_2_alg».proof.Proof.Tile
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.Final

open Cert.KernelIdeal Cert.KernelIdeal.Gen Cert.KernelIdeal.Accum Cert.KernelIdeal.Tile
open Cert.QLinear (col zp correctAfter)

variable (m : (ℓ : Loc nD τ sig) → Buf (Elt Ideal) ℓ) (ρ : Dev nD → PrngReg)

/-- The kernel's result array, as the function of the arrays the region finds. -/
abbrev res (c : Dev nD) : Vec Ideal S16x8192 .f32 := outArr (X m c) (W m c) (Srow m c) (Brow m c)

/-- What a run's last point writes back is its block of that function. -/
theorem flushed_eq (c : Dev nD) (t : Fin cfg0.N) (hf : (cfg0.win 4).flush t = true) :
    (dats m 0 c).flushed 4 t = ((cfg0.win 4).blk t).view.read (Elt Ideal) (res m c) := by
  have h7 : t.val % 8 = 7 := (flush0_4 t).mp hf
  show (cfg0.win 4).cut (grid0.coords t) ((dats m 0 c).after 4 t) = _
  rw [after0_4]
  funext y
  have hp : (y 0).val < 16 := (y 0).isLt
  have hr : (y 1).val < 2048 := (y 1).isLt
  have hq : t.val / 8 < 4 := by have := t.isLt; have : cfg0.N = 32 := N_0; omega
  have key := out_last_apply m c t h7 ⟨(y 0).val, hp⟩ ⟨(y 1).val, hr⟩ ⟨2048 * (t.val / 8) + (y 1).val, by omega⟩ rfl
  show (outsAt0 m c t.val t.isLt).1 y = res m c (((cfg0.win 4).blk t).view.emb y)
  refine Eq.trans (congrArg (outsAt0 m c t.val t.isLt).1 (funext fun a => Fin.ext ?_)) (key.trans (congrArg (res m c) (funext fun a => Fin.ext ?_)))
  · match a with
    | ⟨0, _⟩ => rfl
    | ⟨1, _⟩ => rfl
  · match a with
    | ⟨0, _⟩ => show (y 0).val = win0_4.index t 0 * 16 + 1 * (y 0).val; rw [(index_o t).1]; omega
    | ⟨1, _⟩ => show 2048 * (t.val / 8) + (y 1).val = win0_4.index t 1 * 2048 + 1 * (y 1).val; rw [(index_o t).2]; omega

/-- An index is in point t's block iff each coordinate is in the block's range on its axis. -/
theorem mem_blk (t : Fin cfg0.N) (i : S16x8192.Idx) :
    i ∈ ((cfg0.win 4).blk t).view.set ↔ ∀ a : Fin 2, win0_4.index t a * S16x2048.size a ≤ (i a).val
      ∧ (i a).val < win0_4.index t a * S16x2048.size a + S16x2048.size a := by
  show i ∈ ((View.whole main_v3).slice (win0_4.rect t)).set ↔ _
  rw [View.set_slice_whole, Rect.mem_set_unit]
  exact Iff.rfl

/-- Every index of the result lies in the block of the last point of its tile's run. -/
theorem covered (i : S16x8192.Idx) :
    ∃ t : Fin cfg0.N, (cfg0.win 4).flush t = true ∧ i ∈ ((cfg0.win 4).blk t).view.set := by
  have h0 : (i 0).val < 16 := (i 0).isLt
  have h1 : (i 1).val < 8192 := (i 1).isLt
  have hN : cfg0.N = 32 := N_0
  have ht : 8 * ((i 1).val / 2048) + 7 < cfg0.N := by omega
  refine ⟨⟨8 * ((i 1).val / 2048) + 7, ht⟩, (flush0_4 _).mpr (by show (8 * ((i 1).val / 2048) + 7) % 8 = 7; omega), ?_⟩
  rw [mem_blk]
  intro a
  have e0 := (index_o ⟨8 * ((i 1).val / 2048) + 7, ht⟩).1
  have e1 : win0_4.index ⟨8 * ((i 1).val / 2048) + 7, ht⟩ (1 : Fin 2) = (8 * ((i 1).val / 2048) + 7) / 8 :=
    (index_o ⟨8 * ((i 1).val / 2048) + 7, ht⟩).2
  match a with
  | ⟨0, _⟩ =>
    show win0_4.index ⟨8 * ((i 1).val / 2048) + 7, ht⟩ (0 : Fin 2) * 16 ≤ (i 0).val
      ∧ (i 0).val < win0_4.index ⟨8 * ((i 1).val / 2048) + 7, ht⟩ (0 : Fin 2) * 16 + 16
    rw [e0]; omega
  | ⟨1, _⟩ =>
    show win0_4.index ⟨8 * ((i 1).val / 2048) + 7, ht⟩ (1 : Fin 2) * 2048 ≤ (i 1).val
      ∧ (i 1).val < win0_4.index ⟨8 * ((i 1).val / 2048) + 7, ht⟩ (1 : Fin 2) * 2048 + 2048
    rw [e1]; omega

/-- So the result array ends holding that function. -/
theorem final (c : Dev nD) : (dats m 0 c).arrAt 4 cfg0.N = res m c :=
  (dats m 0 c).arrAt_eq_of_cover 4 (res m c) (flushed_eq m c) (fun i => covered i)

/-! ## The host operations around the region -/

/-- The activations the region finds are the argument viewed as a 16 × 8192 matrix; -/
theorem X_eq (c : Dev nD) :
    X m c = shapeCast S16x8192 (m ((c : Thread nD τ).loc main_arg0)) Facts₀.shapeCasts_S1x16x8192_S16x8192 := by
  show StableHlo.after hostOps0 (fun b => m (c, b)) (Proc.devRef .tc main_v0) = _
  after_results
  rfl

/-- the scales and the biases are the arguments viewed as rows; -/
theorem Srow_eq (c : Dev nD) :
    Srow m c = shapeCast S1x8192 (m ((c : Thread nD τ).loc main_arg2)) Facts₀.shapeCasts_S8192_S1x8192 := by
  show StableHlo.after hostOps0 (fun b => m (c, b)) (Proc.devRef .tc main_v1) = _
  after_results
  rfl

theorem Brow_eq (c : Dev nD) :
    Brow m c = shapeCast S1x8192 (m ((c : Thread nD τ).loc main_arg3)) Facts₀.shapeCasts_S8192_S1x8192 := by
  show StableHlo.after hostOps0 (fun b => m (c, b)) (Proc.devRef .tc main_v2) = _
  after_results
  rfl

/-- the codes are the argument itself. -/
theorem W_eq (c : Dev nD) : W m c = m ((c : Thread nD τ).loc main_arg1) := V_main_arg1 m c

/-- The program's result is the kernel's result array viewed as [1, 16, 8192]. -/
theorem tail_eq (c : Dev nD) :
    Pipeline.afterTail₀ cfgs (dats m) 0 (V0 m) [hostOps1] c main_v4
      = shapeCast S1x16x8192 (res m c) Facts₀.shapeCasts_S16x8192_S1x16x8192 := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 4).trans (final m c)
  refine Eq.trans ?_ (congrArg (fun A : Vec Ideal S16x8192 .f32 => shapeCast S1x16x8192 A Facts₀.shapeCasts_S16x8192_S1x16x8192) e)
  rfl

/-! ## The program's result at an index, and the run -/

/-- At (u, p, o) the program's result is the "multiply the raw codes, correct afterwards" form of the arguments. -/
theorem result_apply (c : Dev nD) (u : Fin 1) (p : Fin 16) (o : Fin 8192) :
    shapeCast S1x16x8192 (res m c) Facts₀.shapeCasts_S16x8192_S1x16x8192 (ix3 u p o)
      = correctAfter (m ((c : Thread nD τ).loc main_arg0)) (m ((c : Thread nD τ).loc main_arg1))
          (m ((c : Thread nD τ).loc main_arg2)) (m ((c : Thread nD τ).loc main_arg3)) u p o := by
  rw [shapeCast_ab_1ab_apply]
  obtain rfl : u = 0 := Subsingleton.elim _ _
  have hX : ∀ k : Fin 8192, X m c (ix2 p k) = m ((c : Thread nD τ).loc main_arg0) (ix3 (0 : Fin 1) p k) := fun k => by
    rw [X_eq]; exact shapeCast_1ab_ab_apply _ _ p k
  have hS : Srow m c (ix2 (0 : Fin 1) o) = m ((c : Thread nD τ).loc main_arg2) (ix1 o) := by
    rw [Srow_eq]; exact shapeCast_a_1a_apply _ _ 0 o
  have hB : Brow m c (ix2 (0 : Fin 1) o) = m ((c : Thread nD τ).loc main_arg3) (ix1 o) := by
    rw [Brow_eq]; exact shapeCast_a_1a_apply _ _ 0 o
  unfold correctAfter
  show ((0 + ∑ q : Fin 8, ∑ j : Fin 1024, X m c (ix2 p (col q j)) * ((((W m c) (ix2 o (col q j))).toInt : ℝ) : EReal))
      - zp * ∑ k : Fin 8192, X m c (ix2 p k)) * Srow m c (ix2 (0 : Fin 1) o) + Brow m c (ix2 (0 : Fin 1) o) = _
  simp only [hX, hS, hB]
  dsimp only [W]
  rw [V_main_arg1 m c]

/-- The run, read: where the activations, the scales and the zero point are real, every weakly fair execution ends with
    the result at the "dequantize first" form of the arguments, and the arguments as they were. -/
theorem run (hx : ∀ c : Dev nD, ∀ i, ∃ r : ℝ, m ((c : Thread nD τ).loc main_arg0) i = (r : EReal))
    (hs : ∀ c : Dev nD, ∀ i, ∃ r : ℝ, m ((c : Thread nD τ).loc main_arg2) i = (r : EReal))
    (hz : ∃ r : ℝ, zp = (r : EReal)) :
    θ_run defs (onTc (τ := τ) (main (F := Ideal))) ⟨m, fun _ => 0, ρ⟩ (fun r => ∀ c : Dev nD,
      r.2.mem ((c.tc : Thread nD τ).loc main_v4)
        = Cert.QLinear.dequantFirst (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨by
      refine (((h c).2 main_v4 (Pipeline.mem_restRefs_of main_v4 (by decide) (by decide))).trans (tail_eq m c)).trans ?_
      funext i
      obtain ⟨u, p, o, rfl⟩ : ∃ (u : Fin 1) (p : Fin 16) (o : Fin 8192), i = ix3 u p o := ⟨i 0, i 1, i 2, eq_ix3 i⟩
      rw [result_apply]
      exact Cert.QLinear.correctAfter_eq _ _ _ _ _ _ _ (fun k => hx c _) (hs c _) hz,
    (((h c).2 main_arg0 (Pipeline.mem_restRefs_of main_arg0 (by decide) (by decide))).trans (W_main_arg0 m (dats m) c)),
    ((h c).1 1).trans (((dats m 0 c).arrAt_in 1 rfl _).trans ((A_eq m c 1).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c))⟩)
    (run_main m ρ)

end Cert.KernelIdeal.Final

end
-- ==== Proof.RefRead.lean ====
/-
  The reference's result, read index by index at the ideal instance: it is the "dequantize first" form.

  At (u, p, o) the reference's last stage is the dot product over k of x (u, p, k) with the dequantized weight
  (w (o, k) − 128) · s o — the code converted exactly, the scale spread along the row —, plus the bias b o.
-/
import proofs.«163201_j53755810676756_2_alg».proof.Proof.Gen.ReferenceIdeal.Run
import proofs.«163201_j53755810676756_2_alg».proof.Proof.Gen.ReferenceIdeal.Read
import proofs.«163201_j53755810676756_2_alg».proof.Proof.Spec

noncomputable section

open Idealize.ShloMosaic Idealize.ShloMosaic.ValueIdx

namespace Cert.ReferenceIdeal.RefValue

open Cert.ReferenceIdeal Cert.ReferenceIdeal.Read
open Cert.QLinear (dequantFirst)

/-- The reference's composed stages are the "dequantize first" form of the arguments. -/
theorem ref_eq (x0 : (⟨S1x16x8192, .f32⟩ : BufTy).Contents (Elt Ideal)) (x1 : (⟨S8192x8192, .i32⟩ : BufTy).Contents (Elt Ideal))
    (x2 x3 : (⟨S8192, .f32⟩ : BufTy).Contents (Elt Ideal)) :
    val_main_v9 (F := Ideal) x0 x1 x2 x3 = dequantFirst x0 x1 x2 x3 := by
  funext i
  obtain ⟨u, p, o, rfl⟩ : ∃ (u : Fin 1) (p : Fin 16) (o : Fin 8192), i = ix3 u p o := ⟨i 0, i 1, i 2, eq_ix3 i⟩
  have el : ∀ k : Fin 8192, lidx_main_v6 (ix3 u p o) k = ix3 u p k := fun k =>
    funext fun a => Fin.ext (by match a with | ⟨0, _⟩ => rfl | ⟨1, _⟩ => rfl | ⟨2, _⟩ => rfl)
  have er : ∀ k : Fin 8192, ridx_main_v6 (ix3 u p o) k = ix2 o k := fun k =>
    funext fun a => Fin.ext (by match a with | ⟨0, _⟩ => rfl | ⟨1, _⟩ => rfl)
  have es : ∀ k : Fin 8192, idx_main_v3 (idx_main_v4 (ix2 o k)) = ix1 o := fun k =>
    funext fun a => Fin.ext (by match a with | ⟨0, _⟩ => rfl)
  have eb : idx_main_v7 (idx_main_v8 (ix3 u p o)) = ix1 o :=
    funext fun a => Fin.ext (by match a with | ⟨0, _⟩ => rfl)
  rw [val_main_v9_apply, val_main_v6_apply, val_main_v8_apply, val_main_v7_apply]
  unfold dequantFirst
  show _ = (∑ k : Fin 8192, x0 (ix3 u p k) * ((Cert.QLinear.code x1 o k - Cert.QLinear.zp) * x2 (ix1 o))) + x3 (ix1 o)
  refine congrArg₂ (fun a b : EReal => a + b) (Finset.sum_congr rfl fun k _ => ?_) (congrArg x3 eb)
  rw [el k, er k, val_main_v5_apply, val_main_v2_apply, val_main_v0_apply, val_main_v1_apply, val_main_cst_apply,
    val_main_v4_apply, val_main_v3_apply, es k]
  rfl

end Cert.ReferenceIdeal.RefValue

end
-- ==== Proof.Finite.lean ====
/-
  What the precondition gives: every activation, every scale and every bias is a real number.

  The precondition compares |v| with +∞ at every entry of the three float inputs and takes the conjunction; an
  extended real whose absolute value is below +∞ is neither infinity, hence a real.
-/
import proofs.«163201_j53755810676756_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Finite

open Cert.Pre_finite_inputs

instance : Subsingleton S_.Idx := ⟨fun a b => funext fun d => d.elim0⟩

/-- The word the precondition compares against is +∞. -/
theorem inf_word : Ideal.ofBits .f32 0x7F800000#32 = (⊤ : EReal) := by
  simp [Ideal.ofBits, Ideal.ieee]

/-- The zero point's word, 128.0, is the real 128. -/
theorem word_128 : Ideal.ofBits .f32 0x43000000#32 = ((128 : ℝ) : EReal) := by
  simp [Ideal.ofBits, Ideal.ieee, -EReal.coe_mul]; norm_num

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The precondition's comparison at one entry. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, inf_word] at h
  refine real_of_abs_lt_top x ?_
  unfold Ideal.cmp at h
  by_contra hn
  simp [hn] at h

/-- Under the precondition every entry of the activations, the scales and the biases is a real. -/
theorem reals_of_pre [Facts] (a0 : FVec Ideal S1x16x8192 .f32) (a1 : IVec S8192x8192 32) (a2 a3 : FVec Ideal S8192 .f32)
    (h : fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn] at h0
  obtain ⟨h02, h3⟩ := IntOp.andi_eq_one.1 h0
  obtain ⟨h1, h2⟩ := IntOp.andi_eq_one.1 h02
  refine ⟨fun i => ?_, fun i => ?_, fun i => ?_⟩
  · exact real_of_cmp (a0 i) (Host.reduce_andi_all _ _ _ _ _ h1 i)
  · exact real_of_cmp (a2 i) (Host.reduce_andi_all _ _ _ _ _ h2 i)
  · exact real_of_cmp (a3 i) (Host.reduce_andi_all _ _ _ _ _ h3 i)

end Cert.Finite

end
-- ==== Proof.lean ====
/-
  A quantized linear layer: the kernel against its reference, equal over the extended reals.

  The reference dequantizes the integer weight codes first, W (o, k) = (w (o, k) − 128) · s o, and returns
  x · Wᵀ + b. The kernel never forms W: over a 4 × 8 grid it accumulates, per output tile of 2048 channels, the
  products of the raw codes with the activations over eight column blocks of 1024 (a zero block at the first
  block of a run, a carried accumulator afterwards), and at a run's last block applies the affine correction
  out = (acc − 128 · ∑ₖ x (·, k)) · s + b once.

  * The three frames: the two kernels' are the generated frame runs; the reference's is its generated run with
    the result dropped.
  * The idealization rewrote nothing, so there is nothing to preserve.
  * The value claim: the kernel's accumulator after a run is the fold of the eight block products (an induction along
    the run, opened once at an index), so the stored tile is the "correct afterwards" form of the arrays; the four
    tiles cover the result; the reshapes around the region only rename indices. The reference's stages compose to
    the "dequantize first" form. Where the activations and the scales are real — which the precondition says — the
    two forms are equal by distributivity over ℝ (the bias may be any extended real: it is added last on both sides).
-/
import proofs.«163201_j53755810676756_2_alg».proof.Defs
import proofs.«163201_j53755810676756_2_alg».proof.Proof.Gen.Kernel
import proofs.«163201_j53755810676756_2_alg».proof.Proof.Gen.Kernel.Skeleton
import proofs.«163201_j53755810676756_2_alg».proof.Proof.Gen.Kernel.Launch
import proofs.«163201_j53755810676756_2_alg».proof.Proof.Gen.Kernel.Points
import proofs.«163201_j53755810676756_2_alg».proof.Proof.Gen.Kernel.Frame
import proofs.«163201_j53755810676756_2_alg».proof.Proof.Gen.KernelIdeal
import proofs.«163201_j53755810676756_2_alg».proof.Proof.Gen.KernelIdeal.Skeleton
import proofs.«163201_j53755810676756_2_alg».proof.Proof.Gen.KernelIdeal.Launch
import proofs.«163201_j53755810676756_2_alg».proof.Proof.Gen.KernelIdeal.Points
import proofs.«163201_j53755810676756_2_alg».proof.Proof.Gen.KernelIdeal.Frame
import proofs.«163201_j53755810676756_2_alg».proof.Proof.Gen.ReferenceIdeal
import proofs.«163201_j53755810676756_2_alg».proof.Proof.Gen.ReferenceIdeal.Run
import proofs.«163201_j53755810676756_2_alg».proof.Proof.Gen.ReferenceIdeal.Read
import proofs.«163201_j53755810676756_2_alg».proof.Proof.Gen.Pre_finite_inputs
import proofs.«163201_j53755810676756_2_alg».proof.Proof.Final
import proofs.«163201_j53755810676756_2_alg».proof.Proof.RefRead
import proofs.«163201_j53755810676756_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The zero point is a real number. -/
theorem zp_real : ∃ r : ℝ, Cert.QLinear.zp = (r : EReal) := ⟨128, Cert.Finite.word_128⟩

/-- Both programs end at the "dequantize first" form of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Finite.reals_of_pre _ _ _ _ (hpre c)
  refine ⟨_, Cert.KernelIdeal.Final.run m ρ (fun c => (hfin c).1) (fun c => (hfin c).2.1) zp_real, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
